-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S16x2048x1024 .f32) (main_arg1 : FVec F S16x2048x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S16x2048x1024 : Shape := ⟨3, ![16, 2048, 1024]⟩
abbrev S1024x1024 : Shape := ⟨2, ![1024, 1024]⟩
abbrev S1024 : Shape := ⟨1, ![1024]⟩
abbrev S1x256x1024 : Shape := ⟨3, ![1, 256, 1024]⟩
abbrev S256x1024 : Shape := ⟨2, ![256, 1024]⟩
abbrev S1x1024 : Shape := ⟨2, ![1, 1024]⟩
abbrev S1x2048x1024 : Shape := ⟨3, ![1, 2048, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 26
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S16x2048x1024, .bf16⟩
  | .hbm, ⟨9, _⟩ => ⟨S16x2048x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S16x2048x1024, .bf16⟩
  | .hbm, ⟨14, _⟩ => ⟨S16x2048x1024, .bf16⟩
  | .hbm, ⟨15, _⟩ => ⟨S16x2048x1024, .bf16⟩
  | .hbm, ⟨16, _⟩ => ⟨S16x2048x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .bf16 = 32 ∨ (Rect.block (s := S16x2048x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S16x2048x1024.size a
  hwx0_1 : ∀ i : grid0.Coords, EltTy.bits .bf16 = 32 ∨ (Rect.block (s := S16x2048x1024) S1x256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x1024.size a ≤ S16x2048x1024.size a
  hwx0_8 : ∀ i : grid0.Coords, EltTy.bits .bf16 = 32 ∨ (Rect.block (s := S16x2048x1024) S1x256x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S16x2048x1024.size a
  hwx0_9 : ∀ i : grid0.Coords, EltTy.bits .bf16 = 32 ∨ (Rect.block (s := S16x2048x1024) S1x256x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x1024.size a ≤ S16x2048x1024.size a
  hwx0_10 : ∀ i : grid0.Coords, EltTy.bits .bf16 = 32 ∨ (Rect.block (s := S16x2048x1024) S1x256x1024.size (cc0_transform_10 i) (hinb0_10 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S16x2048x1024.size a
  hwx1_0 : ∀ i : grid1.Coords, EltTy.bits .bf16 = 32 ∨ (Rect.block (s := S16x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S16x2048x1024.size a
  hwx1_1 : ∀ i : grid1.Coords, EltTy.bits .bf16 = 32 ∨ (Rect.block (s := S16x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S16x2048x1024.size a
  hwx1_2 : ∀ i : grid1.Coords, EltTy.bits .bf16 = 32 ∨ (Rect.block (s := S16x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S16x2048x1024.size a
  hwx1_3 : ∀ i : grid1.Coords, EltTy.bits .f32 = 32 ∨ (Rect.block (s := S16x2048x1024) S1x256x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S16x2048x1024.size a
  hwx1_4 : ∀ i : grid1.Coords, EltTy.bits .f32 = 32 ∨ (Rect.block (s := S16x2048x1024) S1x256x1024.size (cc1_transform_4 i) (hinb1_4 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S1x256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S1x256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_2) S1x256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v5_0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x2048x1024 : Shape := ⟨3, ![16, 2048, 1024]⟩
abbrev S1024x1024 : Shape := ⟨2, ![1024, 1024]⟩
abbrev S1024 : Shape := ⟨1, ![1024]⟩
abbrev S1x1x1024 : Shape := ⟨3, ![1, 1, 1024]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S16x2048x1024, .f32⟩
  | .hbm, ⟨9, _⟩ => ⟨S1x1x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S1x1x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S16x2048x2048, .f32⟩
  | .hbm, ⟨21, _⟩ => ⟨S_, .f32⟩
  | .hbm, ⟨22, _⟩ => ⟨S_, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x2048, .f32⟩
  | .hbm, ⟨38, _⟩ => ⟨S16x2048x2048, .f32⟩
  | .hbm, ⟨39, _⟩ => ⟨S16x2048x1024, .f32⟩
  | .hbm, ⟨40, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S_S16x2048x1 : S_.BroadcastsInDim S16x2048x1 (![] : Fin 0 → Fin S16x2048x1.rank)
  dot_S16x2048x1024_S1024x1024_S16x2048x1024_2_0_01_1_n_n_wf : DotDims.WF S16x2048x1024 S1024x1024 S16x2048x1024 [2] [0] [0, 1] [1] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_0_01_1_n_n : DotDims S16x2048x1024 S1024x1024 S16x2048x1024 where
  lhsContracting := [2]
  rhsContracting := [0]
  lhsNonContracting := [0, 1]
  rhsNonContracting := [1]
  lhsBatch := []
  rhsBatch := []
  wf := dot_S16x2048x1024_S1024x1024_S16x2048x1024_2_0_01_1_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.KernelRun.lean ====
/-
  The idealized kernel's run with its result named.

  The program is two pipelined regions after five host conversions. Its frame run ends, on every core, with every
  unscoped buffer at the contents the segment fold leaves (`Gen.W3`): the arguments as launched, and the result
  buffer (region 1's output array) at what region 1's write-backs leave.  This module states that run with the
  result buffer kept in the post; the following modules read `Gen.W3` at the result as a function of the arguments.
-/
import proofs.«149187_j24876450578750_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result buffer holds what
    the fold through the two regions leaves there, and the eight arguments are as launched. -/
theorem run_fold : θ_run defs (onTc (τ := τ) (main (F := F))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v6 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)

end Cert.KernelIdeal.Whole

end
-- ==== Proof.ProjBody.lean ====
/-
  The projection kernel's body at one entry.

  Each of its three stores writes, for a block of 256 rows `a` of an activation array, a weight matrix `w` and a
  bias `b`, the block whose entry (r, f) is  Σ_d a r d · w d f + b f :  a matrix product into a zero accumulator
  (a plain sum on the extended reals), a bias laid along every row, and changes of float format and of leading unit
  axes that do not change values.
-/
import proofs.«149187_j24876450578750_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ProjBody

open Cert.KernelIdeal Cert.KernelIdeal.Gen Idealize.ShloMosaic Idealize.ShloMosaic.ValueIdx

/-- The dimension record of the body's three products: [256, 1024] × [1024, 1024], contracting the rows' last axis with
    the weight's first. -/
abbrev Dp := dot_S256x1024_S1024x1024_S256x1024_1_0_0_1_n_n

theorem lhs_row (j : S256x1024.Idx) (q : Dp.contr.Idx) : (Dp.lhsIdx j q 0).val = (j 0).val := by
  unfold DotDims.lhsIdx
  rw [dif_neg (show ¬(0 : Fin S256x1024.rank) ∈ Dp.lhsBatch by decide), dif_pos (show (0 : Fin S256x1024.rank) ∈ Dp.lhsNonContracting by decide)]
  rfl

theorem rhs_col (j : S256x1024.Idx) (q : Dp.contr.Idx) : (Dp.rhsIdx j q 1).val = (j 1).val := by
  unfold DotDims.rhsIdx
  rw [dif_neg (show ¬(1 : Fin S1024x1024.rank) ∈ Dp.rhsBatch by decide), dif_pos (show (1 : Fin S1024x1024.rank) ∈ Dp.rhsNonContracting by decide)]
  rfl

/-- The product of a block of rows with a weight, into the zero accumulator, at (r, f): the sum over the shared axis. -/
theorem matmul_rows_apply (a : FVec Ideal S256x1024 .bf16) (w : FVec Ideal S1024x1024 .bf16) (r : Fin 256) (f : Fin 1024) :
    matmul Dp none a w (constant (F := Ideal) S256x1024 .f32 0x00000000#32) (ix2 r f)
      = ∑ d : Fin 1024, a (ix2 r d) * w (ix2 d f) := by
  refine (Ideal.matmul_constant_zero_apply Dp none a w (ix2 r f)).trans ?_
  rw [← Equiv.sum_comp (contrEquiv1 Dp 1024 rfl rfl).symm]
  refine Finset.sum_congr rfl fun d _ => ?_
  have hd := contrEquiv1_symm_val Dp 1024 rfl rfl d
  have el : Dp.lhsIdx (ix2 r f) ((contrEquiv1 Dp 1024 rfl rfl).symm d) = ix2 r d := funext fun ax => Fin.ext (by
    match ax with
    | ⟨0, _⟩ => exact lhs_row _ _
    | ⟨1, _⟩ => exact (Dp.lhsIdx_val_of_single rfl _ _).trans hd)
  have er : Dp.rhsIdx (ix2 r f) ((contrEquiv1 Dp 1024 rfl rfl).symm d) = ix2 d f := funext fun ax => Fin.ext (by
    match ax with
    | ⟨0, _⟩ => exact (Dp.rhsIdx_val_of_single rfl _ _).trans hd
    | ⟨1, _⟩ => exact rhs_col _ _)
  rw [el, er]

/-- A bias laid along every one of 256 rows, at (r, f), is the bias at f. -/
theorem bias_rows_apply (b : FVec Ideal S1024 .f32) (r : Fin 256) (f : Fin 1024) :
    broadcastTo S256x1024 (shapeCast S1x1024 b shapeCasts_S1024_S1x1024) broadcasts_S1x1024_S256x1024 (ix2 r f) = b (ix1 f) :=
  (broadcastTo_1b_ab_apply _ broadcasts_S1x1024_S256x1024 r f).trans (shapeCast_a_1a_apply b shapeCasts_S1024_S1x1024 0 f)

/-- One projected block before it is stored: the product of the block's rows with the weight plus the bias. -/
theorem block_apply (x : FVec Ideal S1x256x1024 .bf16) (w : FVec Ideal S1024x1024 .bf16) (b : FVec Ideal S1024 .f32) (r : Fin 256) (f : Fin 1024) :
    addf (matmul Dp none (shapeCast S256x1024 x shapeCasts_S1x256x1024_S256x1024) (shapeCast S1024x1024 w shapeCasts_S1024x1024_S1024x1024)
        (constant (F := Ideal) S256x1024 .f32 0x00000000#32))
      (broadcastTo S256x1024 (shapeCast S1x1024 b shapeCasts_S1024_S1x1024) broadcasts_S1x1024_S256x1024) (ix2 r f)
      = (∑ d : Fin 1024, x (ix3 (0 : Fin 1) r d) * w (ix2 d f)) + b (ix1 f) := by
  refine (addf_apply _ _ _).trans ?_
  rw [matmul_rows_apply, bias_rows_apply, shapeCast_self]
  refine congrArg (· + b (ix1 f)) (Finset.sum_congr rfl fun d _ => ?_)
  rw [shapeCast_1ab_ab_apply]

/-- The query projection's stored block at an entry. -/
theorem pay_q_apply (x : FVec Ideal S1x256x1024 .bf16) (w : FVec Ideal S1024x1024 .bf16) (b : FVec Ideal S1024 .f32) (u : Fin 1) (r : Fin 256) (f : Fin 1024) :
    k0_pay4 x w b (ix3 u r f) = (∑ d : Fin 1024, x (ix3 (0 : Fin 1) r d) * w (ix2 d f)) + b (ix1 f) := by
  unfold k0_pay4
  refine (shapeCast_ab_1ab_apply _ shapeCasts_S256x1024_S1x256x1024 u r f).trans ?_
  exact block_apply x w b r f

/-- The key projection's stored block at an entry. -/
theorem pay_k_apply (x : FVec Ideal S1x256x1024 .bf16) (w : FVec Ideal S1024x1024 .bf16) (b : FVec Ideal S1024 .f32) (u : Fin 1) (r : Fin 256) (f : Fin 1024) :
    k0_pay5 x w b (ix3 u r f) = (∑ d : Fin 1024, x (ix3 (0 : Fin 1) r d) * w (ix2 d f)) + b (ix1 f) := by
  unfold k0_pay5 k0_pay2
  refine (shapeCast_ab_1ab_apply _ shapeCasts_S256x1024_S1x256x1024 u r f).trans ?_
  exact block_apply x w b r f

/-- The value projection's stored block at an entry. -/
theorem pay_v_apply (x : FVec Ideal S1x256x1024 .bf16) (w : FVec Ideal S1024x1024 .bf16) (b : FVec Ideal S1024 .f32) (u : Fin 1) (r : Fin 256) (f : Fin 1024) :
    k0_pay1 (k0_pay3 x w b) (ix3 u r f) = (∑ d : Fin 1024, x (ix3 (0 : Fin 1) r d) * w (ix2 d f)) + b (ix1 f) := by
  unfold k0_pay1 k0_pay3 k0_pay2
  refine (shapeCast_ab_1ab_apply _ shapeCasts_S256x1024_S1x256x1024 u r f).trans ?_
  exact block_apply x w b r f

end Cert.KernelIdeal.ProjBody

end
-- ==== Proof.Spec.lean ====
/-
  Single-head cross attention with a residual, as one function of the eight argument arrays, index by index on
  the extended reals.

  For a batch `n`, a query row `q` and a feature `f`:

    Q n q f = Σ_d x n q d · Wq d f + bq f,     K n k f = Σ_d y n k d · Wk d f + bk f,     V likewise from y, Wv, bv;
    score n q k = (Σ_d Q n q d · K n k d) · c          (c the scale 1/32 = 1/√1024);
    m = the maximum of the row of scores over k, taken from −∞;
    e k = exp (score k − m),   weight k = e k / (Σ_k' e k' + ε);
    out n q f = Σ_k weight k · V n k f + x n q f.

  The two literals (−∞ and ε) are kept as the f32 words both programs spell; only the scale is evaluated, because
  one program multiplies by the word of 1/32 and the other divides by the square root of the word of 1024.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The activations' shape [16, 2048, 1024], a weight's [1024, 1024], a bias's [1024]. -/
abbrev Act : Shape := ⟨3, ![16, 2048, 1024]⟩
abbrev Wgt : Shape := ⟨2, ![1024, 1024]⟩
abbrev Bias : Shape := ⟨1, ![1024]⟩

/-- One entry of a projection: the row of `x` against the column of `W`, plus the bias. -/
def projAt (x : Act.Idx → EReal) (W : Wgt.Idx → EReal) (b : Bias.Idx → EReal) (n : Fin 16) (s : Fin 2048) (f : Fin 1024) : EReal :=
  (∑ d : Fin 1024, x (ix3 n s d) * W (ix2 d f)) + b (ix1 f)

/-- The projection as an array. -/
def proj (x : Act.Idx → EReal) (W : Wgt.Idx → EReal) (b : Bias.Idx → EReal) : Act.Idx → EReal :=
  fun i => projAt x W b (i 0) (i 1) (i 2)

theorem proj_ix3 (x : Act.Idx → EReal) (W : Wgt.Idx → EReal) (b : Bias.Idx → EReal) (n : Fin 16) (s : Fin 2048) (f : Fin 1024) :
    proj x W b (ix3 n s f) = projAt x W b n s f := rfl

/-- The scale 1/32 as the f32 word the kernel multiplies by. -/
abbrev scaleWord : EReal := Ideal.ofBits .f32 0x3D000000#32
/-- −∞ as the f32 word both maxima start from. -/
abbrev negInfWord : EReal := Ideal.ofBits .f32 0xFF800000#32
/-- ε as the f32 word both denominators add. -/
abbrev epsWord : EReal := Ideal.ofBits .f32 0x358637BD#32

/-- A row of scaled scores: query row `q` of batch `n` against every key row. -/
def scoreRow (Q K : Act.Idx → EReal) (n : Fin 16) (q : Fin 2048) : Fin 2048 → EReal :=
  fun k => (∑ d : Fin 1024, Q (ix3 n q d) * K (ix3 n k d)) * scaleWord

/-- The maximum of a row, folded from −∞. -/
def rowMax (l : Fin 2048 → EReal) : EReal := (Finset.univ : Finset (Fin 2048)).fold max negInfWord l

/-- The shifted exponentials of a row. -/
def rowExp (l : Fin 2048 → EReal) : Fin 2048 → EReal := fun k => Ideal.exp (l k - rowMax l)

/-- The softmax weights of a row, with ε added to the denominator. -/
def rowWeight (l : Fin 2048 → EReal) : Fin 2048 → EReal :=
  fun k => Ideal.div (rowExp l k) ((∑ k' : Fin 2048, rowExp l k') + epsWord)

/-- One entry of the attention output with its residual. -/
def attnAt (Q K V x : Act.Idx → EReal) (n : Fin 16) (q : Fin 2048) (f : Fin 1024) : EReal :=
  (∑ k : Fin 2048, rowWeight (scoreRow Q K n q) k * V (ix3 n k f)) + x (ix3 n q f)

/-- The attention output as an array. -/
def attn (Q K V x : Act.Idx → EReal) : Act.Idx → EReal :=
  fun i => attnAt Q K V x (i 0) (i 1) (i 2)

theorem attn_ix3 (Q K V x : Act.Idx → EReal) (n : Fin 16) (q : Fin 2048) (f : Fin 1024) :
    attn Q K V x (ix3 n q f) = attnAt Q K V x n q f := rfl

/-- The whole computation. -/
def crossAttention (x y : Act.Idx → EReal) (Wq : Wgt.Idx → EReal) (bq : Bias.Idx → EReal) (Wk : Wgt.Idx → EReal)
    (bk : Bias.Idx → EReal) (Wv : Wgt.Idx → EReal) (bv : Bias.Idx → EReal) : Act.Idx → EReal :=
  attn (proj x Wq bq) (proj y Wk bk) (proj y Wv bv) x

/-! ## The scale: dividing by √1024 is multiplying by 1/32 -/

/-- The word 0x44800000 denotes 1024. -/
theorem ofBits_1024 : Ideal.ofBits .f32 0x44800000#32 = ((1024 : ℝ) : EReal) := by
  simp [Ideal.ofBits, Ideal.ieee, -EReal.coe_mul]; norm_num

/-- The word 0x3D000000 denotes 1/32. -/
theorem ofBits_inv32 : Ideal.ofBits .f32 0x3D000000#32 = ((1 / 32 : ℝ) : EReal) := by
  simp [Ideal.ofBits, Ideal.ieee, -EReal.coe_mul]; norm_num

/-- √1024 = 32. -/
theorem sqrt_1024 : Ideal.sqrt ((1024 : ℝ) : EReal) = ((32 : ℝ) : EReal) := by
  show (if (1024 : ℝ) < 0 then (⊥ : EReal) else (Real.sqrt 1024 : EReal)) = _
  rw [if_neg (by norm_num)]
  congr 1
  rw [show (1024 : ℝ) = 32 ^ 2 by norm_num]
  exact Real.sqrt_sq (by norm_num)

/-- On every extended real, the quotient by the square root of the word of 1024 is the product with the word of 1/32. -/
theorem div_sqrt_eq_mul_scale (s : EReal) :
    Ideal.div s (Ideal.sqrt (Ideal.ofBits .f32 0x44800000#32)) = s * scaleWord := by
  rw [ofBits_1024, sqrt_1024, Ideal.div_coe (by norm_num : (32 : ℝ) ≠ 0)]
  show _ = s * Ideal.ofBits .f32 0x3D000000#32
  rw [ofBits_inv32]

end Cert.Attention

end
-- ==== Proof.ProjRegion.lean ====
/-
  The projection region's three output arrays as whole-array functions of the arrays the region finds.

  The grid is 16 × 8: point (n, s) stages rows 256·s … 256·s + 255 of batch n of an activation array, a whole weight
  matrix and a whole bias, and writes back the same rows of batch n of each output. Every entry of an output array
  lies in exactly the block of the point (its batch, its row div 256), so the blocks cover the array and each output
  ends holding the projection of its activation array.
-/
import proofs.«149187_j24876450578750_1_alg».proof.Proof.Gen.KernelIdeal.Frame
import proofs.«149187_j24876450578750_1_alg».proof.Proof.ProjBody
import proofs.«149187_j24876450578750_1_alg».proof.Proof.Spec
import Idealize.ShloMosaic.Lib.Pipeline.Value

set_option maxRecDepth 16384

noncomputable section

namespace Cert.KernelIdeal.ProjRegion

open Cert.KernelIdeal Cert.KernelIdeal.Gen Cert.Attention
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the activation windows and the three output windows all sit at block
    (batch, row block, 0) of their arrays, the weights and biases at their one block, and the batch is below 16, the
    row block below 8. -/
theorem idx_facts : ∀ t : Fin cfg0.N,
    win0_0.index t (0 : Fin 3) = win0_8.index t (0 : Fin 3)
    ∧ win0_0.index t (1 : Fin 3) = win0_8.index t (1 : Fin 3)
    ∧ win0_0.index t (2 : Fin 3) = 0
    ∧ win0_1.index t (0 : Fin 3) = win0_8.index t (0 : Fin 3)
    ∧ win0_1.index t (1 : Fin 3) = win0_8.index t (1 : Fin 3)
    ∧ win0_1.index t (2 : Fin 3) = 0
    ∧ win0_9.index t (0 : Fin 3) = win0_8.index t (0 : Fin 3)
    ∧ win0_9.index t (1 : Fin 3) = win0_8.index t (1 : Fin 3)
    ∧ win0_9.index t (2 : Fin 3) = 0
    ∧ win0_10.index t (0 : Fin 3) = win0_8.index t (0 : Fin 3)
    ∧ win0_10.index t (1 : Fin 3) = win0_8.index t (1 : Fin 3)
    ∧ win0_10.index t (2 : Fin 3) = 0
    ∧ win0_8.index t (2 : Fin 3) = 0
    ∧ win0_2.index t (0 : Fin 2) = 0
    ∧ win0_2.index t (1 : Fin 2) = 0
    ∧ win0_4.index t (0 : Fin 2) = 0
    ∧ win0_4.index t (1 : Fin 2) = 0
    ∧ win0_6.index t (0 : Fin 2) = 0
    ∧ win0_6.index t (1 : Fin 2) = 0
    ∧ win0_3.index t (0 : Fin 1) = 0
    ∧ win0_5.index t (0 : Fin 1) = 0
    ∧ win0_7.index t (0 : Fin 1) = 0
    ∧ win0_8.index t (0 : Fin 3) ≤ 15
    ∧ win0_8.index t (1 : Fin 3) ≤ 7 :=
  (by decide +kernel : ∀ t : Fin grid0.N, _)

/-- Every (batch, row block) is some point's. -/
theorem idx_onto : ∀ (q0 : Fin 16) (q1 : Fin 8), ∃ t : Fin cfg0.N, win0_8.index t = ![q0.val, q1.val, 0] :=
  (by decide +kernel : ∀ (q0 : Fin 16) (q1 : Fin 8), ∃ t : Fin grid0.N, win0_8.index t = ![q0.val, q1.val, 0])

/-- The batch point `t` works on. -/
def bat (t : Fin cfg0.N) : Fin 16 := ⟨win0_8.index t (0 : Fin 3), by obtain ⟨e0, e1, e2, e3, e4, e5, e6, e7, e8, e9, e10, e11, e12, e13, e14, e15, e16, e17, e18, e19, e20, e21, e22, e23⟩ := idx_facts t; omega⟩
/-- The array row that row `r` of point `t`'s block is. -/
def row (t : Fin cfg0.N) (r : Fin 256) : Fin 2048 := ⟨win0_8.index t (1 : Fin 3) * 256 + r.val, by obtain ⟨e0, e1, e2, e3, e4, e5, e6, e7, e8, e9, e10, e11, e12, e13, e14, e15, e16, e17, e18, e19, e20, e21, e22, e23⟩ := idx_facts t; have := r.isLt; omega⟩

/-- An entry of a [1, 256, 1024] block. -/
abbrev blkIx (u : Fin 1) (r : Fin 256) (d : Fin 1024) : S1x256x1024.Idx := ix3 u r d
abbrev wIx (d f : Fin 1024) : S1024x1024.Idx := ix2 d f
abbrev bIx (f : Fin 1024) : S1024.Idx := ix1 f

/-- Row `r` of activation window 0's block at point `t` is row `row t r` of batch `bat t` of its array. -/
theorem read_act0 (c : Dev nD) (t : Fin cfg0.N) (r : Fin 256) (d : Fin 1024) :
    iblk0 V c 0 t (blkIx 0 r d) = V c main_v0 (ix3 (bat t) (row t r) d) := by
  show V c main_v0 (((cfg0.win 0).blk t).view.emb (blkIx 0 r d)) = _
  refine congrArg (V c main_v0) (funext fun a => Fin.ext ?_)
  obtain ⟨e0, e1, e2, e3, e4, e5, e6, e7, e8, e9, e10, e11, e12, e13, e14, e15, e16, e17, e18, e19, e20, e21, e22, e23⟩ := idx_facts t
  match a with
  | ⟨0, _⟩ => show win0_0.index t (0 : Fin 3) * 1 + 1 * 0 = win0_8.index t (0 : Fin 3); omega
  | ⟨1, _⟩ => show win0_0.index t (1 : Fin 3) * 256 + 1 * r.val = win0_8.index t (1 : Fin 3) * 256 + r.val; omega
  | ⟨2, _⟩ => show win0_0.index t (2 : Fin 3) * 1024 + 1 * d.val = d.val; omega

/-- Row `r` of activation window 1's block at point `t` is row `row t r` of batch `bat t` of its array. -/
theorem read_act1 (c : Dev nD) (t : Fin cfg0.N) (r : Fin 256) (d : Fin 1024) :
    iblk0 V c 1 t (blkIx 0 r d) = V c main_v1 (ix3 (bat t) (row t r) d) := by
  show V c main_v1 (((cfg0.win 1).blk t).view.emb (blkIx 0 r d)) = _
  refine congrArg (V c main_v1) (funext fun a => Fin.ext ?_)
  obtain ⟨e0, e1, e2, e3, e4, e5, e6, e7, e8, e9, e10, e11, e12, e13, e14, e15, e16, e17, e18, e19, e20, e21, e22, e23⟩ := idx_facts t
  match a with
  | ⟨0, _⟩ => show win0_1.index t (0 : Fin 3) * 1 + 1 * 0 = win0_8.index t (0 : Fin 3); omega
  | ⟨1, _⟩ => show win0_1.index t (1 : Fin 3) * 256 + 1 * r.val = win0_8.index t (1 : Fin 3) * 256 + r.val; omega
  | ⟨2, _⟩ => show win0_1.index t (2 : Fin 3) * 1024 + 1 * d.val = d.val; omega

/-- Weight window 2's one block is its whole array. -/
theorem read_w2 (c : Dev nD) (t : Fin cfg0.N) (d f : Fin 1024) :
    iblk0 V c 2 t (wIx d f) = V c main_v2 (ix2 d f) := by
  show V c main_v2 (((cfg0.win 2).blk t).view.emb (wIx d f)) = _
  refine congrArg (V c main_v2) (funext fun a => Fin.ext ?_)
  obtain ⟨e0, e1, e2, e3, e4, e5, e6, e7, e8, e9, e10, e11, e12, e13, e14, e15, e16, e17, e18, e19, e20, e21, e22, e23⟩ := idx_facts t
  match a with
  | ⟨0, _⟩ => show win0_2.index t (0 : Fin 2) * 1024 + 1 * d.val = d.val; omega
  | ⟨1, _⟩ => show win0_2.index t (1 : Fin 2) * 1024 + 1 * f.val = f.val; omega

/-- Weight window 4's one block is its whole array. -/
theorem read_w4 (c : Dev nD) (t : Fin cfg0.N) (d f : Fin 1024) :
    iblk0 V c 4 t (wIx d f) = V c main_v3 (ix2 d f) := by
  show V c main_v3 (((cfg0.win 4).blk t).view.emb (wIx d f)) = _
  refine congrArg (V c main_v3) (funext fun a => Fin.ext ?_)
  obtain ⟨e0, e1, e2, e3, e4, e5, e6, e7, e8, e9, e10, e11, e12, e13, e14, e15, e16, e17, e18, e19, e20, e21, e22, e23⟩ := idx_facts t
  match a with
  | ⟨0, _⟩ => show win0_4.index t (0 : Fin 2) * 1024 + 1 * d.val = d.val; omega
  | ⟨1, _⟩ => show win0_4.index t (1 : Fin 2) * 1024 + 1 * f.val = f.val; omega

/-- Weight window 6's one block is its whole array. -/
theorem read_w6 (c : Dev nD) (t : Fin cfg0.N) (d f : Fin 1024) :
    iblk0 V c 6 t (wIx d f) = V c main_v4 (ix2 d f) := by
  show V c main_v4 (((cfg0.win 6).blk t).view.emb (wIx d f)) = _
  refine congrArg (V c main_v4) (funext fun a => Fin.ext ?_)
  obtain ⟨e0, e1, e2, e3, e4, e5, e6, e7, e8, e9, e10, e11, e12, e13, e14, e15, e16, e17, e18, e19, e20, e21, e22, e23⟩ := idx_facts t
  match a with
  | ⟨0, _⟩ => show win0_6.index t (0 : Fin 2) * 1024 + 1 * d.val = d.val; omega
  | ⟨1, _⟩ => show win0_6.index t (1 : Fin 2) * 1024 + 1 * f.val = f.val; omega

/-- Bias window 3's one block is its whole array. -/
theorem read_b3 (c : Dev nD) (t : Fin cfg0.N) (f : Fin 1024) :
    iblk0 V c 3 t (bIx f) = V c main_arg3 (ix1 f) := by
  show V c main_arg3 (((cfg0.win 3).blk t).view.emb (bIx f)) = _
  refine congrArg (V c main_arg3) (funext fun a => Fin.ext ?_)
  obtain ⟨e0, e1, e2, e3, e4, e5, e6, e7, e8, e9, e10, e11, e12, e13, e14, e15, e16, e17, e18, e19, e20, e21, e22, e23⟩ := idx_facts t
  match a with
  | ⟨0, _⟩ => show win0_3.index t (0 : Fin 1) * 1024 + 1 * f.val = f.val; omega

/-- Bias window 5's one block is its whole array. -/
theorem read_b5 (c : Dev nD) (t : Fin cfg0.N) (f : Fin 1024) :
    iblk0 V c 5 t (bIx f) = V c main_arg5 (ix1 f) := by
  show V c main_arg5 (((cfg0.win 5).blk t).view.emb (bIx f)) = _
  refine congrArg (V c main_arg5) (funext fun a => Fin.ext ?_)
  obtain ⟨e0, e1, e2, e3, e4, e5, e6, e7, e8, e9, e10, e11, e12, e13, e14, e15, e16, e17, e18, e19, e20, e21, e22, e23⟩ := idx_facts t
  match a with
  | ⟨0, _⟩ => show win0_5.index t (0 : Fin 1) * 1024 + 1 * f.val = f.val; omega

/-- Bias window 7's one block is its whole array. -/
theorem read_b7 (c : Dev nD) (t : Fin cfg0.N) (f : Fin 1024) :
    iblk0 V c 7 t (bIx f) = V c main_arg7 (ix1 f) := by
  show V c main_arg7 (((cfg0.win 7).blk t).view.emb (bIx f)) = _
  refine congrArg (V c main_arg7) (funext fun a => Fin.ext ?_)
  obtain ⟨e0, e1, e2, e3, e4, e5, e6, e7, e8, e9, e10, e11, e12, e13, e14, e15, e16, e17, e18, e19, e20, e21, e22, e23⟩ := idx_facts t
  match a with
  | ⟨0, _⟩ => show win0_7.index t (0 : Fin 1) * 1024 + 1 * f.val = f.val; omega

/-! ## The query projection (output window 8) -/

/-- Entry (r, f) of output window 8's block at point `t` is entry (bat t, row t r, f) of its array. -/
theorem emb_q (t : Fin cfg0.N) (u : Fin 1) (r : Fin 256) (f : Fin 1024) :
    ((cfg0.win 8).blk t).view.emb (blkIx u r f) = ix3 (bat t) (row t r) f := by
  refine funext fun a => Fin.ext ?_
  obtain ⟨e0, e1, e2, e3, e4, e5, e6, e7, e8, e9, e10, e11, e12, e13, e14, e15, e16, e17, e18, e19, e20, e21, e22, e23⟩ := idx_facts t
  have hu : u.val = 0 := by omega
  match a with
  | ⟨0, _⟩ => show win0_8.index t (0 : Fin 3) * 1 + 1 * u.val = win0_8.index t (0 : Fin 3); omega
  | ⟨1, _⟩ => show win0_8.index t (1 : Fin 3) * 256 + 1 * r.val = win0_8.index t (1 : Fin 3) * 256 + r.val; omega
  | ⟨2, _⟩ => show win0_8.index t (2 : Fin 3) * 1024 + 1 * f.val = f.val; omega

/-- What point `t` writes back through window 8 is block `t` of the projection of the arrays the region finds. -/
theorem flushed_q (c : Dev nD) (t : Fin cfg0.N) :
    (dat0 V c).flushed 8 t = ((cfg0.win 8).blk t).view.read (Elt Ideal) (proj (V c main_v0) (V c main_v2) (V c main_arg3)) := by
  show (cfg0.win 8).cut (grid0.coords t) ((dat0 V c).after 8 t) = _
  rw [after0_8]
  unfold out0_8
  rw [View.canon_unit_zero zero3]
  simp only [View.ld_unit_zero (S := S1x256x1024) zero3, View.ld_unit_zero (S := S1024x1024) zero2, View.ld_unit_zero (S := S1024) zero1]
  funext j
  obtain ⟨u, r, f, rfl⟩ : ∃ (u : Fin 1) (r : Fin 256) (f : Fin 1024), j = blkIx u r f := ⟨j 0, j 1, j 2, eq_ix3 j⟩
  refine (ProjBody.pay_q_apply _ _ _ u r f).trans ?_
  show _ = proj (V c main_v0) (V c main_v2) (V c main_arg3) (((cfg0.win 8).blk t).view.emb (blkIx u r f))
  rw [emb_q t u r f, proj_ix3]
  unfold projAt
  refine congrArg₂ (· + ·) (Finset.sum_congr rfl fun d _ => ?_) ?_
  · exact congrArg₂ (· * ·) (read_act0 V c t r d) (read_w2 V c t d f)
  · exact read_b3 V c t f

/-- An entry is in point `t`'s block of window 8 iff each coordinate is in the block's range. -/
theorem mem_blk_q (t : Fin cfg0.N) (i : S16x2048x1024.Idx) :
    i ∈ ((cfg0.win 8).blk t).view.set ↔ ∀ a : Fin 3, win0_8.index t a * S1x256x1024.size a ≤ (i a).val ∧ (i a).val < win0_8.index t a * S1x256x1024.size a + S1x256x1024.size a := by
  show i ∈ ((View.whole main_v5_0).slice (win0_8.rect t)).set ↔ _
  rw [View.set_slice_whole, Rect.mem_set_unit]
  exact Iff.rfl

/-- Every entry of the array is in the block of the point at (its batch, its row div 256). -/
theorem cover_q (i : S16x2048x1024.Idx) :
    ∃ t : Fin cfg0.N, (cfg0.win 8).flush t = true ∧ i ∈ ((cfg0.win 8).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_8.index t (0 : Fin 3) = (i 0).val := congrFun ht 0
  have q1 : win0_8.index t (1 : Fin 3) = (i 1).val / 256 := congrFun ht 1
  have q2 : win0_8.index t (2 : Fin 3) = 0 := congrFun ht 2
  obtain ⟨e0, e1, e2, e3, e4, e5, e6, e7, e8, e9, e10, e11, e12, e13, e14, e15, e16, e17, e18, e19, e20, e21, e22, e23⟩ := idx_facts t
  refine ⟨t, flush0_8 t, ?_⟩
  rw [mem_blk_q]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 1024 ≤ (i 2).val ∧ (i 2).val < win0_8.index t (2 : Fin 3) * 1024 + 1024; omega

/-- The query array after the region: the projection of the arrays the region finds. -/
theorem final_q (c : Dev nD) :
    (dat0 V c).arrAt 8 cfg0.N = proj (V c main_v0) (V c main_v2) (V c main_arg3) :=
  (dat0 V c).arrAt_eq_of_cover 8 _ (fun t _ => flushed_q V c t) cover_q

/-! ## The key projection (output window 9) -/

/-- Entry (r, f) of output window 9's block at point `t` is entry (bat t, row t r, f) of its array. -/
theorem emb_k (t : Fin cfg0.N) (u : Fin 1) (r : Fin 256) (f : Fin 1024) :
    ((cfg0.win 9).blk t).view.emb (blkIx u r f) = ix3 (bat t) (row t r) f := by
  refine funext fun a => Fin.ext ?_
  obtain ⟨e0, e1, e2, e3, e4, e5, e6, e7, e8, e9, e10, e11, e12, e13, e14, e15, e16, e17, e18, e19, e20, e21, e22, e23⟩ := idx_facts t
  have hu : u.val = 0 := by omega
  match a with
  | ⟨0, _⟩ => show win0_9.index t (0 : Fin 3) * 1 + 1 * u.val = win0_8.index t (0 : Fin 3); omega
  | ⟨1, _⟩ => show win0_9.index t (1 : Fin 3) * 256 + 1 * r.val = win0_8.index t (1 : Fin 3) * 256 + r.val; omega
  | ⟨2, _⟩ => show win0_9.index t (2 : Fin 3) * 1024 + 1 * f.val = f.val; omega

/-- What point `t` writes back through window 9 is block `t` of the projection of the arrays the region finds. -/
theorem flushed_k (c : Dev nD) (t : Fin cfg0.N) :
    (dat0 V c).flushed 9 t = ((cfg0.win 9).blk t).view.read (Elt Ideal) (proj (V c main_v1) (V c main_v3) (V c main_arg5)) := by
  show (cfg0.win 9).cut (grid0.coords t) ((dat0 V c).after 9 t) = _
  rw [after0_9]
  unfold out0_9
  rw [View.canon_unit_zero zero3]
  simp only [View.ld_unit_zero (S := S1x256x1024) zero3, View.ld_unit_zero (S := S1024x1024) zero2, View.ld_unit_zero (S := S1024) zero1]
  funext j
  obtain ⟨u, r, f, rfl⟩ : ∃ (u : Fin 1) (r : Fin 256) (f : Fin 1024), j = blkIx u r f := ⟨j 0, j 1, j 2, eq_ix3 j⟩
  refine (ProjBody.pay_k_apply _ _ _ u r f).trans ?_
  show _ = proj (V c main_v1) (V c main_v3) (V c main_arg5) (((cfg0.win 9).blk t).view.emb (blkIx u r f))
  rw [emb_k t u r f, proj_ix3]
  unfold projAt
  refine congrArg₂ (· + ·) (Finset.sum_congr rfl fun d _ => ?_) ?_
  · exact congrArg₂ (· * ·) (read_act1 V c t r d) (read_w4 V c t d f)
  · exact read_b5 V c t f

/-- An entry is in point `t`'s block of window 9 iff each coordinate is in the block's range. -/
theorem mem_blk_k (t : Fin cfg0.N) (i : S16x2048x1024.Idx) :
    i ∈ ((cfg0.win 9).blk t).view.set ↔ ∀ a : Fin 3, win0_9.index t a * S1x256x1024.size a ≤ (i a).val ∧ (i a).val < win0_9.index t a * S1x256x1024.size a + S1x256x1024.size a := by
  show i ∈ ((View.whole main_v5_1).slice (win0_9.rect t)).set ↔ _
  rw [View.set_slice_whole, Rect.mem_set_unit]
  exact Iff.rfl

/-- Every entry of the array is in the block of the point at (its batch, its row div 256). -/
theorem cover_k (i : S16x2048x1024.Idx) :
    ∃ t : Fin cfg0.N, (cfg0.win 9).flush t = true ∧ i ∈ ((cfg0.win 9).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_8.index t (0 : Fin 3) = (i 0).val := congrFun ht 0
  have q1 : win0_8.index t (1 : Fin 3) = (i 1).val / 256 := congrFun ht 1
  have q2 : win0_8.index t (2 : Fin 3) = 0 := congrFun ht 2
  obtain ⟨e0, e1, e2, e3, e4, e5, e6, e7, e8, e9, e10, e11, e12, e13, e14, e15, e16, e17, e18, e19, e20, e21, e22, e23⟩ := idx_facts t
  refine ⟨t, flush0_9 t, ?_⟩
  rw [mem_blk_k]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 1024 ≤ (i 2).val ∧ (i 2).val < win0_9.index t (2 : Fin 3) * 1024 + 1024; omega

/-- The key array after the region: the projection of the arrays the region finds. -/
theorem final_k (c : Dev nD) :
    (dat0 V c).arrAt 9 cfg0.N = proj (V c main_v1) (V c main_v3) (V c main_arg5) :=
  (dat0 V c).arrAt_eq_of_cover 9 _ (fun t _ => flushed_k V c t) cover_k

/-! ## The value projection (output window 10) -/

/-- Entry (r, f) of output window 10's block at point `t` is entry (bat t, row t r, f) of its array. -/
theorem emb_v (t : Fin cfg0.N) (u : Fin 1) (r : Fin 256) (f : Fin 1024) :
    ((cfg0.win 10).blk t).view.emb (blkIx u r f) = ix3 (bat t) (row t r) f := by
  refine funext fun a => Fin.ext ?_
  obtain ⟨e0, e1, e2, e3, e4, e5, e6, e7, e8, e9, e10, e11, e12, e13, e14, e15, e16, e17, e18, e19, e20, e21, e22, e23⟩ := idx_facts t
  have hu : u.val = 0 := by omega
  match a with
  | ⟨0, _⟩ => show win0_10.index t (0 : Fin 3) * 1 + 1 * u.val = win0_8.index t (0 : Fin 3); omega
  | ⟨1, _⟩ => show win0_10.index t (1 : Fin 3) * 256 + 1 * r.val = win0_8.index t (1 : Fin 3) * 256 + r.val; omega
  | ⟨2, _⟩ => show win0_10.index t (2 : Fin 3) * 1024 + 1 * f.val = f.val; omega

/-- What point `t` writes back through window 10 is block `t` of the projection of the arrays the region finds. -/
theorem flushed_v (c : Dev nD) (t : Fin cfg0.N) :
    (dat0 V c).flushed 10 t = ((cfg0.win 10).blk t).view.read (Elt Ideal) (proj (V c main_v1) (V c main_v4) (V c main_arg7)) := by
  show (cfg0.win 10).cut (grid0.coords t) ((dat0 V c).after 10 t) = _
  rw [after0_10]
  unfold out0_10
  rw [View.canon_unit_zero zero3]
  simp only [View.ld_unit_zero (S := S1x256x1024) zero3, View.ld_unit_zero (S := S1024x1024) zero2, View.ld_unit_zero (S := S1024) zero1]
  funext j
  obtain ⟨u, r, f, rfl⟩ : ∃ (u : Fin 1) (r : Fin 256) (f : Fin 1024), j = blkIx u r f := ⟨j 0, j 1, j 2, eq_ix3 j⟩
  refine (ProjBody.pay_v_apply _ _ _ u r f).trans ?_
  show _ = proj (V c main_v1) (V c main_v4) (V c main_arg7) (((cfg0.win 10).blk t).view.emb (blkIx u r f))
  rw [emb_v t u r f, proj_ix3]
  unfold projAt
  refine congrArg₂ (· + ·) (Finset.sum_congr rfl fun d _ => ?_) ?_
  · exact congrArg₂ (· * ·) (read_act1 V c t r d) (read_w6 V c t d f)
  · exact read_b7 V c t f

/-- An entry is in point `t`'s block of window 10 iff each coordinate is in the block's range. -/
theorem mem_blk_v (t : Fin cfg0.N) (i : S16x2048x1024.Idx) :
    i ∈ ((cfg0.win 10).blk t).view.set ↔ ∀ a : Fin 3, win0_10.index t a * S1x256x1024.size a ≤ (i a).val ∧ (i a).val < win0_10.index t a * S1x256x1024.size a + S1x256x1024.size a := by
  show i ∈ ((View.whole main_v5_2).slice (win0_10.rect t)).set ↔ _
  rw [View.set_slice_whole, Rect.mem_set_unit]
  exact Iff.rfl

/-- Every entry of the array is in the block of the point at (its batch, its row div 256). -/
theorem cover_v (i : S16x2048x1024.Idx) :
    ∃ t : Fin cfg0.N, (cfg0.win 10).flush t = true ∧ i ∈ ((cfg0.win 10).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_8.index t (0 : Fin 3) = (i 0).val := congrFun ht 0
  have q1 : win0_8.index t (1 : Fin 3) = (i 1).val / 256 := congrFun ht 1
  have q2 : win0_8.index t (2 : Fin 3) = 0 := congrFun ht 2
  obtain ⟨e0, e1, e2, e3, e4, e5, e6, e7, e8, e9, e10, e11, e12, e13, e14, e15, e16, e17, e18, e19, e20, e21, e22, e23⟩ := idx_facts t
  refine ⟨t, flush0_10 t, ?_⟩
  rw [mem_blk_v]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 256 ≤ (i 1).val ∧ (i 1).val < win0_10.index t (1 : Fin 3) * 256 + 256; omega
  | ⟨2, _⟩ => show win0_10.index t (2 : Fin 3) * 1024 ≤ (i 2).val ∧ (i 2).val < win0_10.index t (2 : Fin 3) * 1024 + 1024; omega

/-- The value array after the region: the projection of the arrays the region finds. -/
theorem final_v (c : Dev nD) :
    (dat0 V c).arrAt 10 cfg0.N = proj (V c main_v1) (V c main_v4) (V c main_arg7) :=
  (dat0 V c).arrAt_eq_of_cover 10 _ (fun t _ => flushed_v V c t) cover_v

end Cert.KernelIdeal.ProjRegion

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.AttnBody.lean ====
/-
  The attention kernel's body at one entry.

  For a block of 256 query rows `xq`, the 2048 key rows `xk` and value rows `xv` of the same batch, and the residual
  block `xr`, the body stores the block whose entry (r, f) is

      Σ_k weight r k · xv k f + xr r f,

  where the scores of row r are  (Σ_d xq r d · xk k d) · (1/32),  their maximum is taken over k from −∞, every score is
  shifted by it and exponentiated, and each exponential is divided by the row's sum of exponentials plus ε.  The two
  matrix products into zero accumulators and the lane sum are plain sums on the extended reals, the lane maximum a fold
  of `max`; the keepdims columns and the unit axes only move entries.
-/
import proofs.«149187_j24876450578750_1_alg».proof.Proof.Gen.KernelIdeal.Skeleton
import proofs.«149187_j24876450578750_1_alg».proof.Proof.Spec
import proofs.«149187_j24876450578750_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnBody

open Cert.KernelIdeal Cert.KernelIdeal.Gen Cert.Attention
open Idealize.ShloMosaic Idealize.ShloMosaic.ValueIdx Idealize.ShloMosaic.ValueLayout

/-! ## The two matrix products -/

/-- Queries [256, 1024] against keys [2048, 1024], both contracted along their last axis. -/
abbrev Dqk := dot_S256x1024_S2048x1024_S256x2048_1_1_0_0_n_n
/-- Weights [256, 2048] against values [2048, 1024]. -/
abbrev Dav := dot_S256x2048_S2048x1024_S256x1024_1_0_0_1_n_n

theorem qk_lhs_row (j : S256x2048.Idx) (q : Dqk.contr.Idx) : (Dqk.lhsIdx j q 0).val = (j 0).val := by
  unfold DotDims.lhsIdx
  rw [dif_neg (show ¬(0 : Fin S256x1024.rank) ∈ Dqk.lhsBatch by decide), dif_pos (show (0 : Fin S256x1024.rank) ∈ Dqk.lhsNonContracting by decide)]
  rfl

theorem qk_rhs_row (j : S256x2048.Idx) (q : Dqk.contr.Idx) : (Dqk.rhsIdx j q 0).val = (j 1).val := by
  unfold DotDims.rhsIdx
  rw [dif_neg (show ¬(0 : Fin S2048x1024.rank) ∈ Dqk.rhsBatch by decide), dif_pos (show (0 : Fin S2048x1024.rank) ∈ Dqk.rhsNonContracting by decide)]
  rfl

/-- Query rows against key rows, into the zero accumulator, at (r, k): the sum over the feature axis. -/
theorem matmul_qk_apply (a : FVec Ideal S256x1024 .bf16) (b : FVec Ideal S2048x1024 .bf16) (r : Fin 256) (k : Fin 2048) :
    matmul Dqk none a b (constant (F := Ideal) S256x2048 .f32 0x00000000#32) (ix2 r k)
      = ∑ d : Fin 1024, a (ix2 r d) * b (ix2 k d) := by
  refine (Ideal.matmul_constant_zero_apply Dqk none a b (ix2 r k)).trans ?_
  rw [← Equiv.sum_comp (contrEquiv1 Dqk 1024 rfl rfl).symm]
  refine Finset.sum_congr rfl fun d _ => ?_
  have hd := contrEquiv1_symm_val Dqk 1024 rfl rfl d
  have el : Dqk.lhsIdx (ix2 r k) ((contrEquiv1 Dqk 1024 rfl rfl).symm d) = ix2 r d := funext fun ax => Fin.ext (by
    match ax with
    | ⟨0, _⟩ => exact qk_lhs_row _ _
    | ⟨1, _⟩ => exact (Dqk.lhsIdx_val_of_single rfl _ _).trans hd)
  have er : Dqk.rhsIdx (ix2 r k) ((contrEquiv1 Dqk 1024 rfl rfl).symm d) = ix2 k d := funext fun ax => Fin.ext (by
    match ax with
    | ⟨0, _⟩ => exact qk_rhs_row _ _
    | ⟨1, _⟩ => exact (Dqk.rhsIdx_val_of_single rfl _ _).trans hd)
  rw [el, er]

theorem av_lhs_row (j : S256x1024.Idx) (q : Dav.contr.Idx) : (Dav.lhsIdx j q 0).val = (j 0).val := by
  unfold DotDims.lhsIdx
  rw [dif_neg (show ¬(0 : Fin S256x2048.rank) ∈ Dav.lhsBatch by decide), dif_pos (show (0 : Fin S256x2048.rank) ∈ Dav.lhsNonContracting by decide)]
  rfl

theorem av_rhs_col (j : S256x1024.Idx) (q : Dav.contr.Idx) : (Dav.rhsIdx j q 1).val = (j 1).val := by
  unfold DotDims.rhsIdx
  rw [dif_neg (show ¬(1 : Fin S2048x1024.rank) ∈ Dav.rhsBatch by decide), dif_pos (show (1 : Fin S2048x1024.rank) ∈ Dav.rhsNonContracting by decide)]
  rfl

/-- Weight rows against value rows, into the zero accumulator, at (r, f): the sum over the key axis. -/
theorem matmul_av_apply (a : FVec Ideal S256x2048 .bf16) (b : FVec Ideal S2048x1024 .bf16) (r : Fin 256) (f : Fin 1024) :
    matmul Dav none a b (constant (F := Ideal) S256x1024 .f32 0x00000000#32) (ix2 r f)
      = ∑ k : Fin 2048, a (ix2 r k) * b (ix2 k f) := by
  refine (Ideal.matmul_constant_zero_apply Dav none a b (ix2 r f)).trans ?_
  rw [← Equiv.sum_comp (contrEquiv1 Dav 2048 rfl rfl).symm]
  refine Finset.sum_congr rfl fun k _ => ?_
  have hk := contrEquiv1_symm_val Dav 2048 rfl rfl k
  have el : Dav.lhsIdx (ix2 r f) ((contrEquiv1 Dav 2048 rfl rfl).symm k) = ix2 r k := funext fun ax => Fin.ext (by
    match ax with
    | ⟨0, _⟩ => exact av_lhs_row _ _
    | ⟨1, _⟩ => exact (Dav.lhsIdx_val_of_single rfl _ _).trans hk)
  have er : Dav.rhsIdx (ix2 r f) ((contrEquiv1 Dav 2048 rfl rfl).symm k) = ix2 k f := funext fun ax => Fin.ext (by
    match ax with
    | ⟨0, _⟩ => exact (Dav.rhsIdx_val_of_single rfl _ _).trans hk
    | ⟨1, _⟩ => exact av_rhs_col _ _)
  rw [el, er]

/-! ## The body's stages as vector functions -/

/-- The scaled scores of the block. -/
def scores (xq : FVec Ideal S1x256x1024 .bf16) (xk : FVec Ideal S1x2048x1024 .bf16) : FVec Ideal S256x2048 .f32 :=
  mulf (matmul Dqk none (shapeCast S256x1024 xq shapeCasts_S1x256x1024_S256x1024) (shapeCast S2048x1024 xk shapeCasts_S1x2048x1024_S2048x1024)
      (constant (F := Ideal) S256x2048 .f32 0x00000000#32))
    (broadcast S256x2048 (Scalar.ofBits (F := Ideal) .f32 0x3D000000#32))

/-- Every score shifted by its row's maximum and exponentiated. -/
def expo (s : FVec Ideal S256x2048 .f32) : FVec Ideal S256x2048 .f32 :=
  exp (subf s (broadcastTo S256x2048 (shapeCast S256x1 (multiReduction .maximumf [1] S256 s 0xFF800000#32 reduces_S256x2048_S256 (.inl rfl) rfl)
    shapeCasts_S256_S256x1) broadcasts_S256x1_S256x2048))

/-- Every exponential divided by its row's sum plus ε. -/
def weights (s : FVec Ideal S256x2048 .f32) : FVec Ideal S256x2048 .f32 :=
  divf (expo s) (broadcastTo S256x2048 (addf (shapeCast S256x1 (multiReduction .add [1] S256 (expo s) 0x00000000#32 reduces_S256x2048_S256 (.inl rfl) rfl)
    shapeCasts_S256_S256x1) (broadcast S256x1 (Scalar.ofBits (F := Ideal) .f32 0x358637BD#32))) broadcasts_S256x1_S256x2048)

/-- The stored block is the weights against the values plus the residual, under the unit-axis casts. -/
theorem pay_eq (xq : FVec Ideal S1x256x1024 .bf16) (xk xv : FVec Ideal S1x2048x1024 .bf16) (xr : FVec Ideal S1x256x1024 .f32) :
    k1_pay1 xq xk xv xr = shapeCast S1x256x1024 (addf (matmul Dav none (truncf .bf16 (weights (scores xq xk)) bitsLt_bf16_f32)
        (shapeCast S2048x1024 xv shapeCasts_S1x2048x1024_S2048x1024) (constant (F := Ideal) S256x1024 .f32 0x00000000#32))
      (shapeCast S256x1024 xr shapeCasts_S1x256x1024_S256x1024)) shapeCasts_S256x1024_S1x256x1024 := rfl

/-! ## Each stage at an entry -/

/-- The index a lane reduction inserts: row r with lane k. -/
theorem lift_row (r : Fin 256) (k : Fin 2048) : reduces_S256x2048_S256.lift (ix1 r) k = ix2 r k :=
  funext fun a => Fin.ext (by match a with | ⟨0, _⟩ => rfl | ⟨1, _⟩ => rfl)

theorem scores_apply (xq : FVec Ideal S1x256x1024 .bf16) (xk : FVec Ideal S1x2048x1024 .bf16) (r : Fin 256) (k : Fin 2048) :
    scores xq xk (ix2 r k) = (∑ d : Fin 1024, xq (ix3 (0 : Fin 1) r d) * xk (ix3 (0 : Fin 1) k d)) * scaleWord := by
  unfold scores
  refine (mulf_apply _ _ _).trans ?_
  rw [matmul_qk_apply]
  refine congrArg₂ (· * ·) (Finset.sum_congr rfl fun d _ => ?_) rfl
  rw [shapeCast_1ab_ab_apply, shapeCast_1ab_ab_apply]

/-- A column made of a per-row value and laid along the lanes reads that row's value. -/
theorem column_apply (v : FVec Ideal S256 .f32) (r : Fin 256) (k : Fin 2048) :
    broadcastTo S256x2048 (shapeCast S256x1 v shapeCasts_S256_S256x1) broadcasts_S256x1_S256x2048 (ix2 r k) = v (ix1 r) :=
  (broadcastTo_a1_ab_apply _ broadcasts_S256x1_S256x2048 r k).trans (shapeCast_a_a1_apply v shapeCasts_S256_S256x1 r 0)

/-- The lane maximum of row r: the fold of `max` from −∞ over the row. -/
theorem lane_max_apply (s : FVec Ideal S256x2048 .f32) (r : Fin 256) :
    multiReduction .maximumf [1] S256 s 0xFF800000#32 reduces_S256x2048_S256 (.inl rfl) rfl (ix1 r) = rowMax (fun k => s (ix2 r k)) := by
  refine (Ideal.multiReduction_maximumf_single s 0xFF800000#32 reduces_S256x2048_S256 (.inl rfl) rfl (ix1 r)).trans ?_
  unfold rowMax
  refine congrArg (fun g => (Finset.univ : Finset (Fin 2048)).fold max negInfWord g) (funext fun k => ?_)
  exact congrArg s (lift_row r k)

/-- The lane sum of row r. -/
theorem lane_sum_apply (s : FVec Ideal S256x2048 .f32) (r : Fin 256) :
    multiReduction .add [1] S256 s 0x00000000#32 reduces_S256x2048_S256 (.inl rfl) rfl (ix1 r) = ∑ k : Fin 2048, s (ix2 r k) := by
  refine (Ideal.multiReduction_add_single s 0x00000000#32 reduces_S256x2048_S256 (.inl rfl) rfl (ix1 r)).trans ?_
  exact Finset.sum_congr rfl fun k _ => congrArg s (lift_row r k)

theorem expo_apply (s : FVec Ideal S256x2048 .f32) (r : Fin 256) (k : Fin 2048) :
    expo s (ix2 r k) = rowExp (fun k => s (ix2 r k)) k := by
  unfold expo rowExp
  show Ideal.exp (s (ix2 r k) - broadcastTo S256x2048 (shapeCast S256x1 _ shapeCasts_S256_S256x1) broadcasts_S256x1_S256x2048 (ix2 r k)) = _
  rw [column_apply, lane_max_apply]

theorem weights_apply (s : FVec Ideal S256x2048 .f32) (r : Fin 256) (k : Fin 2048) :
    weights s (ix2 r k) = rowWeight (fun k => s (ix2 r k)) k := by
  unfold weights rowWeight
  refine (divf_apply _ _ _).trans ?_
  rw [broadcastTo_a1_ab_apply]
  refine congrArg₂ Ideal.div (expo_apply s r k) ?_
  refine (addf_apply _ _ _).trans ?_
  rw [shapeCast_a_a1_apply, lane_sum_apply]
  refine congrArg₂ (· + ·) (Finset.sum_congr rfl fun k' _ => expo_apply s r k') rfl

/-- The stored block at an entry. -/
theorem pay_attn_apply (xq : FVec Ideal S1x256x1024 .bf16) (xk xv : FVec Ideal S1x2048x1024 .bf16) (xr : FVec Ideal S1x256x1024 .f32)
    (u : Fin 1) (r : Fin 256) (f : Fin 1024) :
    k1_pay1 (F := Ideal) xq xk xv xr (ix3 u r f)
      = (∑ k : Fin 2048, rowWeight (fun k => (∑ d : Fin 1024, xq (ix3 (0 : Fin 1) r d) * xk (ix3 (0 : Fin 1) k d)) * scaleWord) k * xv (ix3 (0 : Fin 1) k f))
        + xr (ix3 (0 : Fin 1) r f) := by
  rw [pay_eq]
  refine (shapeCast_ab_1ab_apply _ shapeCasts_S256x1024_S1x256x1024 u r f).trans ?_
  refine (addf_apply _ _ _).trans ?_
  rw [matmul_av_apply, shapeCast_1ab_ab_apply]
  refine congrArg (· + xr (ix3 (0 : Fin 1) r f)) (Finset.sum_congr rfl fun k _ => ?_)
  rw [shapeCast_1ab_ab_apply]
  refine congrArg (· * xv (ix3 (0 : Fin 1) k f)) ?_
  show weights (scores xq xk) (ix2 r k) = _
  rw [weights_apply]
  exact congrArg (fun l => rowWeight l k) (funext fun k' => scores_apply xq xk r k')

end Cert.KernelIdeal.AttnBody

end
-- ==== Proof.AttnRegion.lean ====
/-
  The attention region's output array as a whole-array function of the arrays the region finds.

  The grid is 16 × 8: point (n, s) stages query rows 256·s … 256·s + 255 of batch n, ALL 2048 key rows and value rows
  of batch n, and the same 256 rows of the residual, and writes back those rows of batch n of the output. So the
  block's scores range over the whole key axis, the softmax of a row is the softmax of the array's row, and every entry
  of the output lies in the block of the point (its batch, its row div 256).
-/
import proofs.«149187_j24876450578750_1_alg».proof.Proof.Gen.KernelIdeal.Frame
import proofs.«149187_j24876450578750_1_alg».proof.Proof.AttnBody
import proofs.«149187_j24876450578750_1_alg».proof.Proof.Spec
import Idealize.ShloMosaic.Lib.Pipeline.Value

set_option maxRecDepth 16384

noncomputable section

namespace Cert.KernelIdeal.AttnRegion

open Cert.KernelIdeal Cert.KernelIdeal.Gen Cert.Attention
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero3 : (![0, 0, 0] : Fin 3 → Nat) = fun _ => 0 := funext fun a => by fin_cases a <;> rfl

/-- The printed index maps over the grid: the query, residual and output windows sit at block (batch, row block, 0),
    the key and value windows at block (batch, 0, 0), with the batch below 16 and the row block below 8. -/
theorem idx_facts : ∀ t : Fin cfg1.N,
    win1_0.index t (0 : Fin 3) = win1_4.index t (0 : Fin 3)
    ∧ win1_0.index t (1 : Fin 3) = win1_4.index t (1 : Fin 3)
    ∧ win1_0.index t (2 : Fin 3) = 0
    ∧ win1_3.index t (0 : Fin 3) = win1_4.index t (0 : Fin 3)
    ∧ win1_3.index t (1 : Fin 3) = win1_4.index t (1 : Fin 3)
    ∧ win1_3.index t (2 : Fin 3) = 0
    ∧ win1_1.index t (0 : Fin 3) = win1_4.index t (0 : Fin 3)
    ∧ win1_1.index t (1 : Fin 3) = 0
    ∧ win1_1.index t (2 : Fin 3) = 0
    ∧ win1_2.index t (0 : Fin 3) = win1_4.index t (0 : Fin 3)
    ∧ win1_2.index t (1 : Fin 3) = 0
    ∧ win1_2.index t (2 : Fin 3) = 0
    ∧ win1_4.index t (2 : Fin 3) = 0
    ∧ win1_4.index t (0 : Fin 3) ≤ 15
    ∧ win1_4.index t (1 : Fin 3) ≤ 7 :=
  (by decide +kernel : ∀ t : Fin grid1.N, _)

/-- Every (batch, row block) is some point's. -/
theorem idx_onto : ∀ (q0 : Fin 16) (q1 : Fin 8), ∃ t : Fin cfg1.N, win1_4.index t = ![q0.val, q1.val, 0] :=
  (by decide +kernel : ∀ (q0 : Fin 16) (q1 : Fin 8), ∃ t : Fin grid1.N, win1_4.index t = ![q0.val, q1.val, 0])

/-- The batch point `t` works on. -/
def bat (t : Fin cfg1.N) : Fin 16 := ⟨win1_4.index t (0 : Fin 3), by obtain ⟨e0, e1, e2, e3, e4, e5, e6, e7, e8, e9, e10, e11, e12, e13, e14⟩ := idx_facts t; omega⟩
/-- The array row that row `r` of point `t`'s query block is. -/
def row (t : Fin cfg1.N) (r : Fin 256) : Fin 2048 := ⟨win1_4.index t (1 : Fin 3) * 256 + r.val, by obtain ⟨e0, e1, e2, e3, e4, e5, e6, e7, e8, e9, e10, e11, e12, e13, e14⟩ := idx_facts t; have := r.isLt; omega⟩

/-- An entry of a [1, 256, 1024] block, and of a [1, 2048, 1024] block. -/
abbrev blkIx (u : Fin 1) (r : Fin 256) (d : Fin 1024) : S1x256x1024.Idx := ix3 u r d
abbrev kvIx (u : Fin 1) (k : Fin 2048) (d : Fin 1024) : S1x2048x1024.Idx := ix3 u k d

/-- Row `r` of the query block at point `t` is row `row t r` of batch `bat t` of the query array. -/
theorem read_q (c : Dev nD) (t : Fin cfg1.N) (r : Fin 256) (d : Fin 1024) :
    iblk1 V c 0 t (blkIx 0 r d) = V c main_v5_0 (ix3 (bat t) (row t r) d) := by
  show V c main_v5_0 (((cfg1.win 0).blk t).view.emb (blkIx 0 r d)) = _
  refine congrArg (V c main_v5_0) (funext fun a => Fin.ext ?_)
  obtain ⟨e0, e1, e2, e3, e4, e5, e6, e7, e8, e9, e10, e11, e12, e13, e14⟩ := idx_facts t
  match a with
  | ⟨0, _⟩ => show win1_0.index t (0 : Fin 3) * 1 + 1 * 0 = win1_4.index t (0 : Fin 3); omega
  | ⟨1, _⟩ => show win1_0.index t (1 : Fin 3) * 256 + 1 * r.val = win1_4.index t (1 : Fin 3) * 256 + r.val; omega
  | ⟨2, _⟩ => show win1_0.index t (2 : Fin 3) * 1024 + 1 * d.val = d.val; omega

/-- Row `r` of the residual block at point `t` is row `row t r` of batch `bat t` of the residual array. -/
theorem read_x (c : Dev nD) (t : Fin cfg1.N) (r : Fin 256) (d : Fin 1024) :
    iblk1 V c 3 t (blkIx 0 r d) = V c main_arg0 (ix3 (bat t) (row t r) d) := by
  show V c main_arg0 (((cfg1.win 3).blk t).view.emb (blkIx 0 r d)) = _
  refine congrArg (V c main_arg0) (funext fun a => Fin.ext ?_)
  obtain ⟨e0, e1, e2, e3, e4, e5, e6, e7, e8, e9, e10, e11, e12, e13, e14⟩ := idx_facts t
  match a with
  | ⟨0, _⟩ => show win1_3.index t (0 : Fin 3) * 1 + 1 * 0 = win1_4.index t (0 : Fin 3); omega
  | ⟨1, _⟩ => show win1_3.index t (1 : Fin 3) * 256 + 1 * r.val = win1_4.index t (1 : Fin 3) * 256 + r.val; omega
  | ⟨2, _⟩ => show win1_3.index t (2 : Fin 3) * 1024 + 1 * d.val = d.val; omega

/-- The key block at point `t` is all of batch `bat t` of the key array. -/
theorem read_k (c : Dev nD) (t : Fin cfg1.N) (k : Fin 2048) (d : Fin 1024) :
    iblk1 V c 1 t (kvIx 0 k d) = V c main_v5_1 (ix3 (bat t) k d) := by
  show V c main_v5_1 (((cfg1.win 1).blk t).view.emb (kvIx 0 k d)) = _
  refine congrArg (V c main_v5_1) (funext fun a => Fin.ext ?_)
  obtain ⟨e0, e1, e2, e3, e4, e5, e6, e7, e8, e9, e10, e11, e12, e13, e14⟩ := idx_facts t
  match a with
  | ⟨0, _⟩ => show win1_1.index t (0 : Fin 3) * 1 + 1 * 0 = win1_4.index t (0 : Fin 3); omega
  | ⟨1, _⟩ => show win1_1.index t (1 : Fin 3) * 2048 + 1 * k.val = k.val; omega
  | ⟨2, _⟩ => show win1_1.index t (2 : Fin 3) * 1024 + 1 * d.val = d.val; omega

/-- The value block at point `t` is all of batch `bat t` of the value array. -/
theorem read_v (c : Dev nD) (t : Fin cfg1.N) (k : Fin 2048) (d : Fin 1024) :
    iblk1 V c 2 t (kvIx 0 k d) = V c main_v5_2 (ix3 (bat t) k d) := by
  show V c main_v5_2 (((cfg1.win 2).blk t).view.emb (kvIx 0 k d)) = _
  refine congrArg (V c main_v5_2) (funext fun a => Fin.ext ?_)
  obtain ⟨e0, e1, e2, e3, e4, e5, e6, e7, e8, e9, e10, e11, e12, e13, e14⟩ := idx_facts t
  match a with
  | ⟨0, _⟩ => show win1_2.index t (0 : Fin 3) * 1 + 1 * 0 = win1_4.index t (0 : Fin 3); omega
  | ⟨1, _⟩ => show win1_2.index t (1 : Fin 3) * 2048 + 1 * k.val = k.val; omega
  | ⟨2, _⟩ => show win1_2.index t (2 : Fin 3) * 1024 + 1 * d.val = d.val; omega

/-- Entry (r, f) of the output block at point `t` is entry (bat t, row t r, f) of the output array. -/
theorem emb_out (t : Fin cfg1.N) (u : Fin 1) (r : Fin 256) (f : Fin 1024) :
    ((cfg1.win 4).blk t).view.emb (blkIx u r f) = ix3 (bat t) (row t r) f := by
  refine funext fun a => Fin.ext ?_
  obtain ⟨e0, e1, e2, e3, e4, e5, e6, e7, e8, e9, e10, e11, e12, e13, e14⟩ := idx_facts t
  have hu : u.val = 0 := by omega
  match a with
  | ⟨0, _⟩ => show win1_4.index t (0 : Fin 3) * 1 + 1 * u.val = win1_4.index t (0 : Fin 3); omega
  | ⟨1, _⟩ => show win1_4.index t (1 : Fin 3) * 256 + 1 * r.val = win1_4.index t (1 : Fin 3) * 256 + r.val; omega
  | ⟨2, _⟩ => show win1_4.index t (2 : Fin 3) * 1024 + 1 * f.val = f.val; omega

/-- What point `t` writes back is block `t` of the attention output of the arrays the region finds. -/
theorem flushed_out (c : Dev nD) (t : Fin cfg1.N) :
    (dat1 V c).flushed 4 t = ((cfg1.win 4).blk t).view.read (Elt Ideal)
      (attn (V c main_v5_0) (V c main_v5_1) (V c main_v5_2) (V c main_arg0)) := by
  show (cfg1.win 4).cut (grid1.coords t) ((dat1 V c).after 4 t) = _
  rw [after1_4]
  unfold out1_4
  rw [View.canon_unit_zero zero3]
  simp only [View.ld_unit_zero (S := S1x256x1024) zero3, View.ld_unit_zero (S := S1x2048x1024) zero3]
  funext j
  obtain ⟨u, r, f, rfl⟩ : ∃ (u : Fin 1) (r : Fin 256) (f : Fin 1024), j = blkIx u r f := ⟨j 0, j 1, j 2, eq_ix3 j⟩
  refine (AttnBody.pay_attn_apply _ _ _ _ u r f).trans ?_
  show _ = attn (V c main_v5_0) (V c main_v5_1) (V c main_v5_2) (V c main_arg0) (((cfg1.win 4).blk t).view.emb (blkIx u r f))
  rw [emb_out t u r f, attn_ix3]
  unfold attnAt scoreRow
  refine congrArg₂ (· + ·) (Finset.sum_congr rfl fun k _ => ?_) (read_x V c t r f)
  refine congrArg₂ (· * ·) ?_ (read_v V c t k f)
  refine congrArg (fun l => rowWeight l k) (funext fun k' => ?_)
  refine congrArg (· * scaleWord) (Finset.sum_congr rfl fun d _ => ?_)
  exact congrArg₂ (· * ·) (read_q V c t r d) (read_k V c t k' d)

/-- An entry is in point `t`'s output block iff each coordinate is in the block's range. -/
theorem mem_blk_out (t : Fin cfg1.N) (i : S16x2048x1024.Idx) :
    i ∈ ((cfg1.win 4).blk t).view.set ↔ ∀ a : Fin 3, win1_4.index t a * S1x256x1024.size a ≤ (i a).val ∧ (i a).val < win1_4.index t a * S1x256x1024.size a + S1x256x1024.size a := by
  show i ∈ ((View.whole main_v6).slice (win1_4.rect t)).set ↔ _
  rw [View.set_slice_whole, Rect.mem_set_unit]
  exact Iff.rfl

/-- Every entry of the output array is in the block of the point at (its batch, its row div 256). -/
theorem cover_out (i : S16x2048x1024.Idx) :
    ∃ t : Fin cfg1.N, (cfg1.win 4).flush t = true ∧ i ∈ ((cfg1.win 4).blk t).view.set := by
  have hi0 : (i 0).val < 16 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win1_4.index t (0 : Fin 3) = (i 0).val := congrFun ht 0
  have q1 : win1_4.index t (1 : Fin 3) = (i 1).val / 256 := congrFun ht 1
  have q2 : win1_4.index t (2 : Fin 3) = 0 := congrFun ht 2
  refine ⟨t, flush1_4 t, ?_⟩
  rw [mem_blk_out]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 1024 ≤ (i 2).val ∧ (i 2).val < win1_4.index t (2 : Fin 3) * 1024 + 1024; omega

/-- The output array after the region: the attention output, with its residual, of the arrays the region finds. -/
theorem final_out (c : Dev nD) :
    (dat1 V c).arrAt 4 cfg1.N = attn (V c main_v5_0) (V c main_v5_1) (V c main_v5_2) (V c main_arg0) :=
  (dat1 V c).arrAt_eq_of_cover 4 _ (fun t _ => flushed_out V c t) cover_out

end Cert.KernelIdeal.AttnRegion

end
-- ==== Proof.KernelValue.lean ====
/-
  The idealized kernel's result as a function of its arguments.

  Before the first region the host converts x, y and the three weight matrices to bf16: on the extended reals a change
  of float format is the identity, so the first region finds the arguments themselves.  It leaves the query, key and
  value projections; the second region finds those and the untouched x, and leaves the attention output.  Composed,
  the result buffer ends at the attention function of the eight arguments.
-/
import proofs.«149187_j24876450578750_1_alg».proof.Proof.KernelRun
import proofs.«149187_j24876450578750_1_alg».proof.Proof.ProjRegion
import proofs.«149187_j24876450578750_1_alg».proof.Proof.AttnRegion
import Idealize.ShloMosaic.Lib.StableHlo.Run

set_option maxRecDepth 16384

noncomputable section

namespace Cert.KernelIdeal.Whole

open Cert.KernelIdeal Cert.KernelIdeal.Gen Cert.Attention
open Idealize.ShloMosaic Idealize.ShloMosaic.TcCoe Idealize.ShloMosaic.StableHlo Idealize.SL.Sem

variable (m : (ℓ : Loc nD τ sig) → Buf (Elt Ideal) ℓ) (ρ : Dev nD → PrngReg)

/-! ## What the first region finds: the arguments, the converted ones unchanged in value -/

theorem entry_v0 (c : Dev nD) : (V1 m ρ c main_v0 : Act.Idx → EReal) = (m ((c.tc : Thread nD τ).loc main_arg0)) := by
  show StableHlo.after hostOps0 (W0 m ρ c) (Proc.devRef .tc main_v0) = _
  dsimp only [hostOps0]
  after_results
  try rfl

theorem entry_v1 (c : Dev nD) : (V1 m ρ c main_v1 : Act.Idx → EReal) = (m ((c.tc : Thread nD τ).loc main_arg1)) := by
  show StableHlo.after hostOps0 (W0 m ρ c) (Proc.devRef .tc main_v1) = _
  dsimp only [hostOps0]
  after_results
  try rfl

theorem entry_v2 (c : Dev nD) : (V1 m ρ c main_v2 : Wgt.Idx → EReal) = (m ((c.tc : Thread nD τ).loc main_arg2)) := by
  show StableHlo.after hostOps0 (W0 m ρ c) (Proc.devRef .tc main_v2) = _
  dsimp only [hostOps0]
  after_results
  try rfl

theorem entry_v3 (c : Dev nD) : (V1 m ρ c main_v3 : Wgt.Idx → EReal) = (m ((c.tc : Thread nD τ).loc main_arg4)) := by
  show StableHlo.after hostOps0 (W0 m ρ c) (Proc.devRef .tc main_v3) = _
  dsimp only [hostOps0]
  after_results
  try rfl

theorem entry_v4 (c : Dev nD) : (V1 m ρ c main_v4 : Wgt.Idx → EReal) = (m ((c.tc : Thread nD τ).loc main_arg6)) := by
  show StableHlo.after hostOps0 (W0 m ρ c) (Proc.devRef .tc main_v4) = _
  dsimp only [hostOps0]
  after_results
  try rfl

theorem entry_arg3 (c : Dev nD) : (V1 m ρ c main_arg3 : Bias.Idx → EReal) = (m ((c.tc : Thread nD τ).loc main_arg3)) := by
  show StableHlo.after hostOps0 (W0 m ρ c) (Proc.devRef .tc main_arg3) = _
  dsimp only [hostOps0]
  after_results
  try rfl

theorem entry_arg5 (c : Dev nD) : (V1 m ρ c main_arg5 : Bias.Idx → EReal) = (m ((c.tc : Thread nD τ).loc main_arg5)) := by
  show StableHlo.after hostOps0 (W0 m ρ c) (Proc.devRef .tc main_arg5) = _
  dsimp only [hostOps0]
  after_results
  try rfl

theorem entry_arg7 (c : Dev nD) : (V1 m ρ c main_arg7 : Bias.Idx → EReal) = (m ((c.tc : Thread nD τ).loc main_arg7)) := by
  show StableHlo.after hostOps0 (W0 m ρ c) (Proc.devRef .tc main_arg7) = _
  dsimp only [hostOps0]
  after_results
  try rfl

theorem entry_arg0 (c : Dev nD) : (V1 m ρ c main_arg0 : Act.Idx → EReal) = (m ((c.tc : Thread nD τ).loc main_arg0)) := by
  show StableHlo.after hostOps0 (W0 m ρ c) (Proc.devRef .tc main_arg0) = _
  dsimp only [hostOps0]
  after_results
  try rfl

/-! ## What the second region finds -/

/-- The query array: the projection of x. -/
theorem query_array (c : Dev nD) :
    (V2 m ρ c main_v5_0 : Act.Idx → EReal) = proj (m ((c.tc : Thread nD τ).loc main_arg0)) (m ((c.tc : Thread nD τ).loc main_arg2)) (m ((c.tc : Thread nD τ).loc main_arg3)) := by
  refine ((W2_arr m ρ c 8).trans (ProjRegion.final_q (V1 m ρ) c)).trans ?_
  rw [entry_v0, entry_v2, entry_arg3]

/-- The key array: the projection of y by the key weights. -/
theorem key_array (c : Dev nD) :
    (V2 m ρ c main_v5_1 : Act.Idx → EReal) = proj (m ((c.tc : Thread nD τ).loc main_arg1)) (m ((c.tc : Thread nD τ).loc main_arg4)) (m ((c.tc : Thread nD τ).loc main_arg5)) := by
  refine ((W2_arr m ρ c 9).trans (ProjRegion.final_k (V1 m ρ) c)).trans ?_
  rw [entry_v1, entry_v3, entry_arg5]

/-- The value array: the projection of y by the value weights. -/
theorem value_array (c : Dev nD) :
    (V2 m ρ c main_v5_2 : Act.Idx → EReal) = proj (m ((c.tc : Thread nD τ).loc main_arg1)) (m ((c.tc : Thread nD τ).loc main_arg6)) (m ((c.tc : Thread nD τ).loc main_arg7)) := by
  refine ((W2_arr m ρ c 10).trans (ProjRegion.final_v (V1 m ρ) c)).trans ?_
  rw [entry_v1, entry_v4, entry_arg7]

/-- The residual: x, which the first region only reads. -/
theorem residual_array (c : Dev nD) : (V2 m ρ c main_arg0 : Act.Idx → EReal) = (m ((c.tc : Thread nD τ).loc main_arg0)) :=
  (W2_of_ne m ρ c main_arg0 (by decide)).trans (entry_arg0 m ρ c)

/-! ## The result -/

/-- The fold through both regions leaves, at the result buffer, the attention function of the arguments. -/
theorem result_fold (c : Dev nD) :
    (W3 m ρ c (Proc.devRef .tc main_v6) : Act.Idx → EReal)
      = crossAttention (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine ((W3_arr m ρ c 4).trans (AttnRegion.final_out (V2 m ρ) c)).trans ?_
  rw [query_array, key_array, value_array, residual_array]
  rfl

/-- Every weakly fair execution of the idealized kernel terminates without a fault, with the result buffer at the
    attention function of the arguments and the arguments as launched. -/
theorem run : θ_run defs (onTc (τ := τ) (main (F := Ideal))) ⟨m, fun _ => 0, ρ⟩ (fun r => ∀ c : Dev nD,
      r.2.mem ((c.tc : Thread nD τ).loc main_v6)
        = crossAttention (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_fold m ρ c), (h c).2⟩) (run_fold m ρ)

end Cert.KernelIdeal.Whole

end
-- ==== Proof.RefValue.lean ====
/-
  The reference's result, read one operation at a time, is the attention function of its arguments.

  Its three projections are `dot_general`s plus a broadcast bias; its scores a batched `dot_general` of the query and key
  projections divided by √1024, which on every extended real is the product with 1/32; the row maximum a reduction
  with `max` from −∞, the row sum a reduction with `+` from 0; the keepdims broadcasts read the row's value back at every
  lane; the last `dot_general` sums the weights against the value projection, and the residual is added.
-/
import proofs.«149187_j24876450578750_1_alg».proof.Proof.Gen.ReferenceIdeal.Read
import proofs.«149187_j24876450578750_1_alg».proof.Proof.Spec
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Cert.Attention
open Idealize.ShloMosaic Idealize.ShloMosaic.TcCoe Idealize.ShloMosaic.ValueIdx

/-! ## The three projections -/

theorem lidx_v0 (n : Fin 16) (s : Fin 2048) (f d : Fin 1024) : lidx_main_v0 (ix3 n s f) d = ix3 n s d := funext fun a => by match a with | ⟨0, _⟩ => rfl | ⟨1, _⟩ => rfl | ⟨2, _⟩ => rfl
theorem ridx_v0 (n : Fin 16) (s : Fin 2048) (f d : Fin 1024) : ridx_main_v0 (ix3 n s f) d = ix2 d f := funext fun a => by match a with | ⟨0, _⟩ => rfl | ⟨1, _⟩ => rfl
theorem bidx_v2 (n : Fin 16) (s : Fin 2048) (f : Fin 1024) : idx_main_v1 (idx_main_v2 (ix3 n s f)) = ix1 f := funext fun a => by match a with | ⟨0, _⟩ => rfl

/-- The query projection at an entry. -/
theorem query_apply (x0 : (⟨S16x2048x1024, .f32⟩ : BufTy).Contents (Elt Ideal)) (x2 : (⟨S1024x1024, .f32⟩ : BufTy).Contents (Elt Ideal)) (x3 : (⟨S1024, .f32⟩ : BufTy).Contents (Elt Ideal)) (n : Fin 16) (s : Fin 2048) (f : Fin 1024) :
    val_main_v3 (F := Ideal) x0 x2 x3 (ix3 n s f) = projAt x0 x2 x3 n s f := by
  rw [val_main_v3_apply, val_main_v0_apply, val_main_v2_apply, val_main_v1_apply, bidx_v2]
  unfold projAt
  refine congrArg₂ (· + ·) (Finset.sum_congr rfl fun d _ => ?_) rfl
  rw [lidx_v0, ridx_v0]

theorem lidx_v4 (n : Fin 16) (s : Fin 2048) (f d : Fin 1024) : lidx_main_v4 (ix3 n s f) d = ix3 n s d := funext fun a => by match a with | ⟨0, _⟩ => rfl | ⟨1, _⟩ => rfl | ⟨2, _⟩ => rfl
theorem ridx_v4 (n : Fin 16) (s : Fin 2048) (f d : Fin 1024) : ridx_main_v4 (ix3 n s f) d = ix2 d f := funext fun a => by match a with | ⟨0, _⟩ => rfl | ⟨1, _⟩ => rfl
theorem bidx_v6 (n : Fin 16) (s : Fin 2048) (f : Fin 1024) : idx_main_v5 (idx_main_v6 (ix3 n s f)) = ix1 f := funext fun a => by match a with | ⟨0, _⟩ => rfl

/-- The key projection at an entry. -/
theorem key_apply (x1 : (⟨S16x2048x1024, .f32⟩ : BufTy).Contents (Elt Ideal)) (x4 : (⟨S1024x1024, .f32⟩ : BufTy).Contents (Elt Ideal)) (x5 : (⟨S1024, .f32⟩ : BufTy).Contents (Elt Ideal)) (n : Fin 16) (s : Fin 2048) (f : Fin 1024) :
    val_main_v7 (F := Ideal) x1 x4 x5 (ix3 n s f) = projAt x1 x4 x5 n s f := by
  rw [val_main_v7_apply, val_main_v4_apply, val_main_v6_apply, val_main_v5_apply, bidx_v6]
  unfold projAt
  refine congrArg₂ (· + ·) (Finset.sum_congr rfl fun d _ => ?_) rfl
  rw [lidx_v4, ridx_v4]

theorem lidx_v8 (n : Fin 16) (s : Fin 2048) (f d : Fin 1024) : lidx_main_v8 (ix3 n s f) d = ix3 n s d := funext fun a => by match a with | ⟨0, _⟩ => rfl | ⟨1, _⟩ => rfl | ⟨2, _⟩ => rfl
theorem ridx_v8 (n : Fin 16) (s : Fin 2048) (f d : Fin 1024) : ridx_main_v8 (ix3 n s f) d = ix2 d f := funext fun a => by match a with | ⟨0, _⟩ => rfl | ⟨1, _⟩ => rfl
theorem bidx_v10 (n : Fin 16) (s : Fin 2048) (f : Fin 1024) : idx_main_v9 (idx_main_v10 (ix3 n s f)) = ix1 f := funext fun a => by match a with | ⟨0, _⟩ => rfl

/-- The value projection at an entry. -/
theorem value_apply (x1 : (⟨S16x2048x1024, .f32⟩ : BufTy).Contents (Elt Ideal)) (x6 : (⟨S1024x1024, .f32⟩ : BufTy).Contents (Elt Ideal)) (x7 : (⟨S1024, .f32⟩ : BufTy).Contents (Elt Ideal)) (n : Fin 16) (s : Fin 2048) (f : Fin 1024) :
    val_main_v11 (F := Ideal) x1 x6 x7 (ix3 n s f) = projAt x1 x6 x7 n s f := by
  rw [val_main_v11_apply, val_main_v8_apply, val_main_v10_apply, val_main_v9_apply, bidx_v10]
  unfold projAt
  refine congrArg₂ (· + ·) (Finset.sum_congr rfl fun d _ => ?_) rfl
  rw [lidx_v8, ridx_v8]

/-! ## The scores -/

theorem lidx_v12 (n : Fin 16) (q k : Fin 2048) (d : Fin 1024) : lidx_main_v12 (ix3 n q k) d = ix3 n q d := funext fun a => by match a with | ⟨0, _⟩ => rfl | ⟨1, _⟩ => rfl | ⟨2, _⟩ => rfl
theorem ridx_v12 (n : Fin 16) (q k : Fin 2048) (d : Fin 1024) : ridx_main_v12 (ix3 n q k) d = ix3 n k d := funext fun a => by match a with | ⟨0, _⟩ => rfl | ⟨1, _⟩ => rfl | ⟨2, _⟩ => rfl

/-- A scaled score: the query row against the key row, divided by √1024, which is the product with the word of 1/32. -/
theorem score_apply (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (n : Fin 16) (q k : Fin 2048) :
    val_main_v15 (F := Ideal) x0 x1 x2 x3 x4 x5 (ix3 n q k) = scoreRow (proj x0 x2 x3) (proj x1 x4 x5) n q k := by
  rw [val_main_v15_apply, val_main_v12_apply, val_main_v14_apply, val_main_v13_apply, val_main_cst_apply]
  simp only [Ideal.hostDivf_def, Ideal.hostUnary_sqrt_def, Ideal.ofBits_def]
  rw [div_sqrt_eq_mul_scale]
  unfold scoreRow
  refine congrArg (· * scaleWord) (Finset.sum_congr rfl fun d _ => ?_)
  rw [lidx_v12, ridx_v12, query_apply, key_apply, proj_ix3, proj_ix3]

/-! ## The row maximum -/

theorem lift_v16 (h : S16x2048x2048.Reduces [2] S16x2048) (n : Fin 16) (q k : Fin 2048) : h.lift (ix2 n q) k = ix3 n q k := funext fun a => by match a with | ⟨0, _⟩ => rfl | ⟨1, _⟩ => rfl | ⟨2, _⟩ => rfl

/-- The host's reduction with `max` from −∞ over the last axis, at row (n, q): the fold of `max` over the row. -/
theorem host_max_row (y : FVec Ideal S16x2048x2048 .f32) (n : Fin 16) (q : Fin 2048) :
    Host.reduce FloatOps.maximumf y (val_main_cst_0 (F := Ideal)) reducesTo_S16x2048x2048_S16x2048_d2 h_S_ (ix2 n q)
      = rowMax (fun k => y (ix3 n q k)) := by
  have h : S16x2048x2048.Reduces [2] S16x2048 := by decide
  rw [Host.reduce_eq_fold_single FloatOps.maximumf y _ reducesTo_S16x2048x2048_S16x2048_d2 h h_S_]
  have hf : (y ∘ h.lift (ix2 n q)) = fun k : Fin 2048 => y (ix3 n q k) := funext fun k => congrArg y (lift_v16 h n q k)
  rw [hf]
  rfl

/-- The maximum of row (n, q) of the scores, from −∞. -/
theorem max_apply (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (n : Fin 16) (q : Fin 2048) :
    val_main_v16 (F := Ideal) x0 x1 x2 x3 x4 x5 (ix2 n q) = rowMax (scoreRow (proj x0 x2 x3) (proj x1 x4 x5) n q) := by
  unfold val_main_v16
  rw [host_max_row]
  exact congrArg rowMax (funext fun k => score_apply x0 x1 x2 x3 x4 x5 n q k)

/-! ## The exponentials, their sum, the weights -/

theorem midx_v18 (n : Fin 16) (q k : Fin 2048) : idx_main_v17 (idx_main_v18 (ix3 n q k)) = ix2 n q := funext fun a => by match a with | ⟨0, _⟩ => rfl | ⟨1, _⟩ => rfl

theorem exp_apply (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (n : Fin 16) (q k : Fin 2048) :
    val_main_v20 (F := Ideal) x0 x1 x2 x3 x4 x5 (ix3 n q k) = rowExp (scoreRow (proj x0 x2 x3) (proj x1 x4 x5) n q) k := by
  rw [val_main_v20_apply, val_main_v19_apply, val_main_v18_apply, val_main_v17_apply, midx_v18, max_apply, score_apply]
  rfl

theorem sidx_v21 (n : Fin 16) (q k : Fin 2048) : idx_main_v21 (ix2 n q) k = ix3 n q k := funext fun a => by match a with | ⟨0, _⟩ => rfl | ⟨1, _⟩ => rfl | ⟨2, _⟩ => rfl

theorem sum_apply (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (n : Fin 16) (q : Fin 2048) :
    val_main_v21 (F := Ideal) x0 x1 x2 x3 x4 x5 (ix2 n q) = ∑ k : Fin 2048, rowExp (scoreRow (proj x0 x2 x3) (proj x1 x4 x5) n q) k := by
  rw [val_main_v21_apply, val_main_cst_1_apply]
  simp only [Ideal.ofBits_def]
  rw [Ideal.ofBits_zero_f32, zero_add]
  refine Finset.sum_congr rfl fun k _ => ?_
  rw [sidx_v21, exp_apply]

theorem didx_v25 (n : Fin 16) (q k : Fin 2048) : idx_main_v22 (idx_main_v25 (ix3 n q k)) = ix2 n q := funext fun a => by match a with | ⟨0, _⟩ => rfl | ⟨1, _⟩ => rfl

theorem weight_apply (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (n : Fin 16) (q k : Fin 2048) :
    val_main_v26 (F := Ideal) x0 x1 x2 x3 x4 x5 (ix3 n q k) = rowWeight (scoreRow (proj x0 x2 x3) (proj x1 x4 x5) n q) k := by
  rw [val_main_v26_apply, val_main_v25_apply, val_main_v24_apply, val_main_v22_apply, val_main_v23_apply, val_main_cst_2_apply,
    didx_v25, sum_apply, exp_apply]
  rfl

/-! ## The result -/

theorem lidx_v27 (n : Fin 16) (q k : Fin 2048) (f : Fin 1024) : lidx_main_v27 (ix3 n q f) k = ix3 n q k := funext fun a => by match a with | ⟨0, _⟩ => rfl | ⟨1, _⟩ => rfl | ⟨2, _⟩ => rfl
theorem ridx_v27 (n : Fin 16) (q k : Fin 2048) (f : Fin 1024) : ridx_main_v27 (ix3 n q f) k = ix3 n k f := funext fun a => by match a with | ⟨0, _⟩ => rfl | ⟨1, _⟩ => rfl | ⟨2, _⟩ => rfl

/-- The reference's result array is the attention function of its eight arguments. -/
theorem result_eq (x0 x1 : (⟨S16x2048x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) :
    val_main_v28 (F := Ideal) x0 x1 x2 x3 x4 x5 x6 x7 = crossAttention x0 x1 x2 x3 x4 x5 x6 x7 := by
  funext i
  obtain ⟨n, q, f, rfl⟩ : ∃ (n : Fin 16) (q : Fin 2048) (f : Fin 1024), i = ix3 n q f := ⟨i 0, i 1, i 2, eq_ix3 i⟩
  rw [val_main_v28_apply, val_main_v27_apply]
  unfold crossAttention
  rw [attn_ix3]
  unfold attnAt
  refine congrArg₂ (· + ·) (Finset.sum_congr rfl fun k _ => ?_) rfl
  rw [lidx_v27, ridx_v27, weight_apply, value_apply, proj_ix3]

end Cert.ReferenceIdeal.RefValue

end
-- ==== Proof.lean ====
/-
  Single-head cross attention with a residual: a two-kernel pipelined program against its jnp reference.

  The program first projects x and y to queries, keys and values (one kernel, a 16 × 8 grid of 256-row blocks), then,
  per batch and 256-row query block, takes the scaled scores against all 2048 keys, their row-wise softmax with ε in
  the denominator, the weighted sum of the values, and adds x (a second kernel on the same grid).  The reference does
  the same with einsums over the whole arrays.

  On the extended reals the two results are one function of the eight arguments, entry by entry: sums of products,
  a maximum from −∞, exponentials and one quotient, in the same arrangement on both sides.  The one place the two
  texts differ is the scale — the kernel multiplies the scores by the f32 word of 1/32, the reference divides them by
  the square root of the f32 word of 1024 — and those agree on every extended real.  No step moves a factor across
  a sum or cancels, so the precondition (finite inputs) is not used.

  The idealization rewrote no operation of the kernel, so there is nothing to preserve; the three frames are the
  generated frame runs and the reference's generated run.
-/
import proofs.«149187_j24876450578750_1_alg».proof.Defs
import proofs.«149187_j24876450578750_1_alg».proof.Proof.Gen.Kernel
import proofs.«149187_j24876450578750_1_alg».proof.Proof.Gen.Kernel.Skeleton
import proofs.«149187_j24876450578750_1_alg».proof.Proof.Gen.Kernel.Launch
import proofs.«149187_j24876450578750_1_alg».proof.Proof.Gen.Kernel.Points
import proofs.«149187_j24876450578750_1_alg».proof.Proof.Gen.Kernel.Frame
import proofs.«149187_j24876450578750_1_alg».proof.Proof.Gen.KernelIdeal
import proofs.«149187_j24876450578750_1_alg».proof.Proof.Gen.KernelIdeal.Skeleton
import proofs.«149187_j24876450578750_1_alg».proof.Proof.Gen.KernelIdeal.Launch
import proofs.«149187_j24876450578750_1_alg».proof.Proof.Gen.KernelIdeal.Points
import proofs.«149187_j24876450578750_1_alg».proof.Proof.Gen.KernelIdeal.Frame
import proofs.«149187_j24876450578750_1_alg».proof.Proof.Gen.ReferenceIdeal
import proofs.«149187_j24876450578750_1_alg».proof.Proof.Gen.Pre_finite_inputs
import proofs.«149187_j24876450578750_1_alg».proof.Proof.Gen.ReferenceIdeal.Run
import proofs.«149187_j24876450578750_1_alg».proof.Proof.Gen.ReferenceIdeal.Read
import proofs.«149187_j24876450578750_1_alg».proof.Proof.KernelValue
import proofs.«149187_j24876450578750_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both idealized programs end with the attention function of those
    arguments in their result buffers. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v28_eq, Cert.ReferenceIdeal.RefValue.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
